-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S512x512 : Shape := ⟨2, ![512, 512]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S65536x1024 .f32) (main_arg1 : FVec F S512x512 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S65536x1024 : Shape := ⟨2, ![65536, 1024]⟩
abbrev S512x512 : Shape := ⟨2, ![512, 512]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S512x512, .f32⟩
  | .local _ .vmem, ⟨3, _⟩ => ⟨S1024x1024, .f32⟩
  | .local _ .vmem, ⟨4, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x512_S512x512_1_0 : S512x512.Transposes [1, 0] S512x512
  inb_S1024x1024_S1024x1024_0_0 : ∀ a, (![0, 0] : Fin 2 → Nat) a + S1024x1024.size a ≤ S1024x1024.size a
  h_S1024x1024 : 0 < S1024x1024.numel
  slices_S1024x1024_o0_0_S1024x512 : S1024x1024.Slices ![0, 0] S1024x512
  slices_S1024x1024_o0_512_S1024x512 : S1024x1024.Slices ![0, 512] S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  concatenates_S1024x512_S1024x512_S1024x1024_d1 : Shape.Concatenates [S1024x512, S1024x512] S1024x1024 1
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S65536x1024.size a
  hwx0_2 : ∀ i : grid0.Coords, EltTy.bits .f32 = 32 ∨ (Rect.block (s := S65536x1024) S1024x1024.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S512x512 : Shape := ⟨2, ![512, 512]⟩
abbrev S65536x512 : Shape := ⟨2, ![65536, 512]⟩

abbrev nBuf : Space → Nat
  | .hbm => 9
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S65536x512, .f32⟩
  | .hbm, ⟨5, _⟩ => ⟨S65536x512, .f32⟩
  | .hbm, ⟨6, _⟩ => ⟨S65536x512, .f32⟩
  | .hbm, ⟨7, _⟩ => ⟨S65536x512, .f32⟩
  | .hbm, ⟨8, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  transposes_S512x512_S512x512_1_0 : S512x512.Transposes [1, 0] S512x512
  slices_S65536x1024_S65536x512_0_0 : S65536x1024.Slices ![0, 0] S65536x512
  slices_S65536x1024_S65536x512_0_512 : S65536x1024.Slices ![0, 512] S65536x512
  concatenates_S65536x512_S65536x512_S65536x1024_d1 : Shape.Concatenates [S65536x512, S65536x512] S65536x1024 1
  dot_S65536x512_S512x512_S65536x512_1_1_0_0_n_n_wf : DotDims.WF S65536x512 S512x512 S65536x512 [1] [1] [0] [0] [] []

variable [Facts₀]

def dot_S65536x512_S512x512_S65536x512_1_1_0_0_n_n : DotDims S65536x512 S512x512 S65536x512 where
  lhsContracting := [1]
  rhsContracting := [1]
  lhsNonContracting := [0]
  rhsNonContracting := [0]
  lhsBatch := []
  rhsBatch := []
  wf := dot_S65536x512_S512x512_S65536x512_1_1_0_0_n_n_wf

class Facts : Prop extends Facts₀ where

variable [Facts]
-- ==== Proof.ShearSpec.lean ====
/-
  The map this certificate is about, as one function of the two argument arrays.

  A row of the first argument is a pair (p, q) of 512-vectors laid side by side: columns 0 … 511 hold the momentum p,
  columns 512 … 1023 the position q. With the symmetric matrix S = A + Aᵀ the map sends every row (p, q) to
  (p + S q, q): column c < 512 of the result is p_c + Σ_k q_k · S(k, c), and a column c ≥ 512 is copied.

  Both programs compute exactly this over the extended reals. They differ in which entry of S they multiply q_k by —
  one reads S(k, c), the other S(c, k) — and S(k, c) = A(k, c) + A(c, k) is symmetric because addition of extended
  reals commutes. That is the only law used; nothing here needs an entry to be finite.

  Also here: a block of 1024 consecutive rows of the result is the same formula applied to that block of rows
  (`tile_eq`), since a row of the result depends on the same row of the argument only.
-/
import Idealize.ShloMosaic.PureOps.Ideal
import Idealize.ShloMosaic.Lib.ValueIdx

noncomputable section

namespace Cert.Shear

open Idealize.ShloMosaic Idealize.ShloMosaic.ValueIdx

/-- The column of a row (p, q) that holds the position coordinate q_k. -/
abbrev qcol (k : Fin 512) : Fin 1024 := ⟨512 + k.val, by omega⟩

/-- The symmetrised matrix S = A + Aᵀ at (a, b). -/
def sym (A : FVec Ideal ⟨2, ![512, 512]⟩ .f32) (a b : Fin 512) : EReal := A (ix2 a b) + A (ix2 b a)

/-- S is symmetric: addition of extended reals commutes. -/
theorem sym_comm (A : FVec Ideal ⟨2, ![512, 512]⟩ .f32) (a b : Fin 512) : sym A a b = sym A b a := add_comm _ _

/-- Row `r`, column `c` of the result: p_c + Σ_k q_k · S(k, c) in a momentum column, the argument's entry in a
    position column. -/
def shearAt (x : FVec Ideal ⟨2, ![65536, 1024]⟩ .f32) (A : FVec Ideal ⟨2, ![512, 512]⟩ .f32) (r : Fin 65536) (c : Fin 1024) : EReal :=
  if h : c.val < 512 then x (ix2 r c) + ∑ k : Fin 512, x (ix2 r (qcol k)) * sym A k ⟨c.val, h⟩ else x (ix2 r c)

/-- The whole result array. -/
def shear (x : FVec Ideal ⟨2, ![65536, 1024]⟩ .f32) (A : FVec Ideal ⟨2, ![512, 512]⟩ .f32) : FVec Ideal ⟨2, ![65536, 1024]⟩ .f32 :=
  fun i => shearAt x A (i 0) (i 1)

theorem shear_ix2 (x : FVec Ideal ⟨2, ![65536, 1024]⟩ .f32) (A : FVec Ideal ⟨2, ![512, 512]⟩ .f32) (r : Fin 65536) (c : Fin 1024) :
    shear x A (ix2 r c) = shearAt x A r c := rfl

/-- The same formula on a block of 1024 rows `v` and ANY 512 × 512 matrix `S`, read as S(k, c). -/
def tileAt (v : FVec Ideal ⟨2, ![1024, 1024]⟩ .f32) (S : FVec Ideal ⟨2, ![512, 512]⟩ .f32) (p c : Fin 1024) : EReal :=
  if h : c.val < 512 then v (ix2 p c) + ∑ k : Fin 512, v (ix2 p (qcol k)) * S (ix2 k ⟨c.val, h⟩) else v (ix2 p c)

/-- A BLOCK OF ROWS OF THE RESULT is the formula on that block of rows: when `v` is rows 1024·b … 1024·b + 1023 of `x`
    and `S` is A + Aᵀ, the block's entry (p, c) is the result's entry at row 1024·b + p, column c. -/
theorem tile_eq (x : FVec Ideal ⟨2, ![65536, 1024]⟩ .f32) (A : FVec Ideal ⟨2, ![512, 512]⟩ .f32)
    (v : FVec Ideal ⟨2, ![1024, 1024]⟩ .f32) (S : FVec Ideal ⟨2, ![512, 512]⟩ .f32) (b : Nat)
    (hv : ∀ (p c : Fin 1024) (r : Fin 65536), r.val = b * 1024 + p.val → v (ix2 p c) = x (ix2 r c))
    (hS : ∀ k c : Fin 512, S (ix2 k c) = sym A k c)
    (p c : Fin 1024) (i : (⟨2, ![65536, 1024]⟩ : Shape).Idx) (hi0 : (i 0).val = b * 1024 + p.val) (hi1 : (i 1).val = c.val) :
    tileAt v S p c = shear x A i := by
  obtain ⟨r, c', rfl⟩ : ∃ (r : Fin 65536) (c' : Fin 1024), i = ix2 r c' := ⟨i 0, i 1, eq_ix2 i⟩
  obtain rfl : c' = c := Fin.ext hi1
  have hr : r.val = b * 1024 + p.val := hi0
  rw [shear_ix2]
  unfold tileAt shearAt
  by_cases h : c'.val < 512
  · rw [dif_pos h, dif_pos h, hv p c' r hr]
    refine congrArg (x (ix2 r c') + ·) (Finset.sum_congr rfl fun k _ => ?_)
    rw [hv p (qcol k) r hr, hS]
  · rw [dif_neg h, dif_neg h, hv p c' r hr]

end Cert.Shear

end
-- ==== Proof.LibPlainMatmul.lean ====
import Idealize.ShloMosaic.PureOps.Ideal.Laws
import Idealize.ShloMosaic.Lib.ValueIdx
import Idealize.ShloMosaic.Lib.Pipeline.Value

noncomputable section

namespace Idealize.ShloMosaic.PlainMatmul

open Idealize.ShloMosaic Idealize.ShloMosaic.ValueIdx

variable {M K N : Nat} {φ₁ φ₂ : FTy}

/-- The dimension numbers of a plain matrix product, rows × contraction by contraction × columns, for any witness of their
    side conditions. -/
abbrev dims (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  ⟨[1], [0], [0], [1], [], [], wf⟩

/-- Over the extended reals a plain matrix product into a zero accumulator is, at row `p` and column `q`, the sum over
    the contracted coordinate `k` of the left operand at `(p, k)` times the right operand at `(k, q)`. -/
theorem matmul_zero_apply (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    FloatOps.matmul (dims wf) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, h0⟩ =>
      unfold DotDims.lhsIdx
      rw [dif_neg (List.not_mem_nil : ¬(⟨0, h0⟩ : Fin 2) ∈ (dims wf).lhsBatch),
        dif_pos (List.mem_singleton.mpr rfl : (⟨0, h0⟩ : Fin 2) ∈ (dims wf).lhsNonContracting)]
      rfl
    | ⟨1, _⟩ => exact ((dims wf).lhsIdx_val_of_single rfl _ _).trans hk)
  have er : (dims wf).rhsIdx (ix2 p q) ((contrEquiv1 (dims wf) K rfl rfl).symm k) = ix2 k q := funext fun a => Fin.ext (by
    match a with
    | ⟨0, _⟩ => exact ((dims wf).rhsIdx_val_of_single rfl _ _).trans hk
    | ⟨1, h1⟩ =>
      unfold DotDims.rhsIdx
      rw [dif_neg (List.not_mem_nil : ¬(⟨1, h1⟩ : Fin 2) ∈ (dims wf).rhsBatch),
        dif_pos (List.mem_singleton.mpr rfl : (⟨1, h1⟩ : Fin 2) ∈ (dims wf).rhsNonContracting)]
      rfl)
  rw [el, er]

end Idealize.ShloMosaic.PlainMatmul

end
-- ==== Proof.LibColumnBands.lean ====
import Idealize.ShloMosaic.Lib.Pipeline.Value
import Idealize.ShloMosaic.Lib.ValueIdx

/-!
  Bands of columns of a two-axis array, for any extents and any element type.

  * `band_apply`: columns `off … off + w − 1` cut out of an [R, W] array (a unit-stride slice that keeps every row) read,
    at (p, k), the array at (p, off + k);
  * `join_left` / `join_right`: an [R, n₁] array and an [R, n₂] array laid side by side along the column axis read, at
    (p, c), the left one at (p, c) when c < n₁ and the right one at (p, c − n₁) otherwise.

  Every index is written from its two coordinates (`ValueIdx.ix2 p c`).
-/

namespace Idealize.ShloMosaic.ColumnBands

open Idealize.ShloMosaic Idealize.ShloMosaic.ValueIdx

variable {α : Type} {R W w off n₁ n₂ : Nat}

/-- A band of columns cut out of an [R, W] array, at (p, k): the array at (p, off + k). -/
theorem band_apply (v : (⟨2, ![R, W]⟩ : Shape).Idx → α) (h : (⟨2, ![R, W]⟩ : Shape).Slices ![0, off] ⟨2, ![R, w]⟩)
    (p : Fin R) (k : Fin w) (hk : off + k.val < W) :
    extractStridedSlice ⟨2, ![R, w]⟩ ![0, off] v h (ix2 p k) = v (ix2 p ⟨off + k.val, hk⟩) :=
  extractStridedSlice_apply ![0, off] v h (ix2 p k) (ix2 p ⟨off + k.val, hk⟩) (fun d => by
    match d with
    | ⟨0, _⟩ => show p.val = 0 + p.val; omega
    | ⟨1, _⟩ => show off + k.val = off + k.val; rfl)

/-- Two arrays side by side along the column axis, read in a column of the left one. -/
theorem join_left (x : (⟨2, ![R, n₁]⟩ : Shape).Idx → α) (y : (⟨2, ![R, n₂]⟩ : Shape).Idx → α)
    (h : Shape.Concatenates [⟨2, ![R, n₁]⟩, ⟨2, ![R, n₂]⟩] ⟨2, ![R, W]⟩ (1 : Fin 2)) (p : Fin R) (c : Fin W) (hc : c.val < n₁) :
    concatenate ⟨2, ![R, W]⟩ (1 : Fin 2) [⟨⟨2, ![R, n₁]⟩, x⟩, ⟨⟨2, ![R, n₂]⟩, y⟩] h (ix2 p c) = x (ix2 p ⟨c.val, hc⟩) :=
  concatenate_pair_apply_left (1 : Fin 2) x y h (ix2 p c) rfl (ix2 p ⟨c.val, hc⟩) (fun d => by
    match d with
    | ⟨0, _⟩ => rfl
    | ⟨1, _⟩ => rfl)

/-- Two arrays side by side along the column axis, read in a column of the right one. -/
theorem join_right (x : (⟨2, ![R, n₁]⟩ : Shape).Idx → α) (y : (⟨2, ![R, n₂]⟩ : Shape).Idx → α)
    (h : Shape.Concatenates [⟨2, ![R, n₁]⟩, ⟨2, ![R, n₂]⟩] ⟨2, ![R, W]⟩ (1 : Fin 2)) (p : Fin R) (c : Fin W) (hc : n₁ ≤ c.val)
    (hb : c.val - n₁ < n₂) :
    concatenate ⟨2, ![R, W]⟩ (1 : Fin 2) [⟨⟨2, ![R, n₁]⟩, x⟩, ⟨⟨2, ![R, n₂]⟩, y⟩] h (ix2 p c) = y (ix2 p ⟨c.val - n₁, hb⟩) :=
  concatenate_pair_apply_right (1 : Fin 2) x y h (ix2 p c) rfl rfl (ix2 p ⟨c.val - n₁, hb⟩)
    (fun d hd => by
      match d with
      | ⟨0, _⟩ => rfl
      | ⟨1, _⟩ => exact absurd rfl hd)
    (by show c.val - n₁ + n₁ = c.val; omega)

end Idealize.ShloMosaic.ColumnBands
-- ==== Proof.ShearTile.lean ====
/-
  The kernel body's arithmetic on one block, entry by entry.

  The body loads a block `v` of 1024 rows and the 512 × 512 matrix `S`, cuts the block's rows into their momentum half
  (columns 0 … 511) and position half (columns 512 … 1023), multiplies the position half by `S` (rows of the block times
  columns of `S`, accumulated from zero), adds the product to the momentum half, and lays the sum and the untouched position
  half side by side again. Over the extended reals a change of float format is the identity and the product's entry (p, c)
  is Σ_k q(p, k) · S(k, c), so the stored block's entry (p, c) is `tileAt v S p c`.
-/
import proofs.«122211_j28776280883572_1_alg».proof.Proof.Gen.KernelIdeal.Skeleton
import proofs.«122211_j28776280883572_1_alg».proof.Proof.ShearSpec
import proofs.«122211_j28776280883572_1_alg».proof.Proof.LibPlainMatmul
import proofs.«122211_j28776280883572_1_alg».proof.Proof.LibColumnBands
import Idealize.ShloMosaic.Lib.Pipeline.Value
import Idealize.ShloMosaic.Lib.ValueIdx

noncomputable section

namespace Cert.Shear

open Cert.KernelIdeal Cert.KernelIdeal.Gen Idealize.ShloMosaic Idealize.ShloMosaic.ValueIdx

/-- THE STORED BLOCK, entry by entry: the body's one payload at (p, c) is `tileAt` of the two loaded values. -/
theorem payload_apply (v : FVec Ideal S1024x1024 .f32) (S : FVec Ideal S512x512 .f32) (p c : Fin 1024) :
    k0_pay1 (F := Ideal) v S (ix2 p c) = tileAt v S p c := by
  unfold k0_pay1 tileAt
  by_cases h : c.val < 512
  · -- a momentum column: the left half, p + q · S
    rw [dif_pos h]
    refine (ColumnBands.join_left _ _ concatenates_S1024x512_S1024x512_S1024x1024_d1 p c h).trans ?_
    refine congrArg₂ (· + ·) ((ColumnBands.band_apply v slices_S1024x1024_o0_0_S1024x512 p ⟨c.val, h⟩ (by show 0 + c.val < 1024; omega)).trans
      (congrArg v (congrArg (ix2 p) (Fin.ext (Nat.zero_add c.val))))) ?_
    refine (PlainMatmul.matmul_zero_apply dot_S1024x512_S512x512_S1024x512_1_0_0_1_n_n_wf none _ _ p ⟨c.val, h⟩).trans ?_
    refine Finset.sum_congr rfl fun k _ => ?_
    refine congrArg₂ (· * ·) (ColumnBands.band_apply v slices_S1024x1024_o0_512_S1024x512 p k (by omega)) ?_
    show shapeCast S512x512 S shapeCasts_S512x512_S512x512 (ix2 k ⟨c.val, h⟩) = S (ix2 k ⟨c.val, h⟩)
    rw [shapeCast_self]
  · -- a position column: the right half, q itself
    rw [dif_neg h]
    have hc : c.val < 1024 := c.isLt
    refine (ColumnBands.join_right _ _ concatenates_S1024x512_S1024x512_S1024x1024_d1 p c (by omega) (by omega)).trans ?_
    refine (ColumnBands.band_apply v slices_S1024x1024_o0_512_S1024x512 p ⟨c.val - 512, by omega⟩ (by show 512 + (c.val - 512) < 1024; omega)).trans ?_
    refine congrArg v (congrArg (ix2 p) (Fin.ext ?_))
    show 512 + (c.val - 512) = c.val
    omega

end Cert.Shear

end
-- ==== Proof.ShearKernel.lean ====
/-
  The kernel's result array after the run is the map `shear` of the two argument arrays.

  Before the grid starts the host forms S = A + Aᵀ. The grid has 64 points; point t stages rows 1024·t … 1024·t + 1023 of
  the first argument (all 1024 columns) and the whole of S, and writes the body's block back to the same rows of the
  result. The block the body stores is `tileAt` of what it loaded, which is those rows of `shear` (a row of the result
  depends on the same row of the argument only), and the 64 row blocks cover the result: row r lies in block r / 1024.
-/
import proofs.«122211_j28776280883572_1_alg».proof.Proof.Gen.KernelIdeal.Value
import proofs.«122211_j28776280883572_1_alg».proof.Proof.ShearTile
import Idealize.ShloMosaic.Lib.Pipeline.Value
import Idealize.ShloMosaic.Lib.StableHlo.Run
import Idealize.ShloMosaic.Lib.Tactic

noncomputable section

namespace Cert.Shear.Kernel

open Cert.KernelIdeal Cert.KernelIdeal.Gen Cert.Shear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The matrix the region finds in the second window's array: the host's A + Aᵀ. -/
theorem V_matrix (c : Dev nD) :
    (V m c main_v1 : S512x512.Idx → EReal)
      = addf (F := Ideal) (s := S512x512) (φ := .f32) (m ((c : Thread nD τ).loc main_arg1))
          (transpose S512x512 [1, 0] (m ((c : Thread nD τ).loc main_arg1)) transposes_S512x512_S512x512_1_0) := by
  dsimp only [Gen.V, Gen.hostOps0]
  after_results

/-- A matrix plus its transpose, at (a, b), is `sym` of the matrix. -/
theorem plusTranspose_apply (A : FVec Ideal S512x512 .f32) (a b : Fin 512) :
    addf (F := Ideal) (s := S512x512) (φ := .f32) A (transpose S512x512 [1, 0] A transposes_S512x512_S512x512_1_0) (ix2 a b) = sym A a b := by
  show A (ix2 a b) + transpose S512x512 [1, 0] A transposes_S512x512_S512x512_1_0 (ix2 a b) = A (ix2 a b) + A (ix2 b a)
  refine congrArg (A (ix2 a b) + ·) ?_
  exact transpose_apply [1, 0] A transposes_S512x512_S512x512_1_0 (ix2 a b) (ix2 b a) (fun d => by
    match d with
    | ⟨0, _⟩ => rfl
    | ⟨1, _⟩ => rfl)

/-- Entry (a, b) of the matrix the region finds is `sym A a b`. -/
theorem V_matrix_apply (c : Dev nD) (a b : Fin 512) :
    (V m c main_v1 : S512x512.Idx → EReal) (ix2 a b) = sym (m ((c : Thread nD τ).loc main_arg1)) a b := by
  rw [V_matrix]
  exact plusTranspose_apply _ a b

/-- The printed index maps, decided over the 64 grid points: the row windows sit at block row t, column block 0; the
    matrix window never moves. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point t is rows 1024·t … of the first argument. -/
theorem rows_apply (c : Dev nD) (t : Fin cfg0.N) (p q : Fin 1024) (r : Fin 65536) (hr : r.val = t.val * 1024 + p.val) :
    (iblk m c 0 t : S1024x1024.Idx → EReal) (ix2 p q) = (m ((c : Thread nD τ).loc main_arg0) : S65536x1024.Idx → EReal) (ix2 r q) := by
  obtain ⟨e0, e1, -, -, -, -⟩ := index_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * q.val = q.val; rw [e1]; omega

/-- The second window's block at any point is the whole matrix A + Aᵀ. -/
theorem matrix_apply (c : Dev nD) (t : Fin cfg0.N) (a b : Fin 512) :
    (iblk m c 1 t : S512x512.Idx → EReal) (ix2 a b) = sym (m ((c : Thread nD τ).loc main_arg1)) a b := by
  obtain ⟨-, -, e2, e3, -, -⟩ := index_facts t
  unfold iblk
  rw [View.read_apply]
  show V m c main_v1 _ = _
  refine (congrArg (V m c main_v1 : S512x512.Idx → EReal) (funext fun d => Fin.ext ?_)).trans (V_matrix_apply m c a b)
  match d with
  | ⟨0, _⟩ => show win0_1.index t (0 : Fin 2) * 512 + 1 * a.val = a.val; rw [e2]; omega
  | ⟨1, _⟩ => show win0_1.index t (1 : Fin 2) * 512 + 1 * b.val = b.val; rw [e3]; omega

/-- WHAT POINT t WRITES BACK is block t of `shear` of the argument arrays. -/
theorem flushed_eq (c : Dev nD) (t : Fin cfg0.N) :
    (dats m 0 c).flushed 2 t
      = ((cfg0.win 2).blk t).view.read (Elt Ideal) (shear (m ((c : Thread nD τ).loc main_arg0)) (m ((c : Thread nD τ).loc main_arg1))) := by
  obtain ⟨-, -, -, -, e4, e5⟩ := index_facts t
  rw [Value.flushed2]
  show out0_2 (iblk m c 0 t) (iblk m c 1 t) = _
  unfold out0_2
  rw [View.canon_unit_zero zeroOffsets]
  simp only [View.ld_unit_zero (S := S1024x1024) zeroOffsets, View.ld_unit_zero (S := S512x512) zeroOffsets]
  funext y
  obtain ⟨p, q, rfl⟩ : ∃ (p q : Fin 1024), y = ix2 p q := ⟨y 0, y 1, eq_ix2 y⟩
  refine (payload_apply (iblk m c 0 t) (iblk m c 1 t) p q).trans ?_
  rw [View.read_apply]
  refine tile_eq (m ((c : Thread nD τ).loc main_arg0)) (m ((c : Thread nD τ).loc main_arg1)) (iblk m c 0 t) (iblk m c 1 t) t.val
    (fun p' c' r hr => rows_apply m c t p' c' r hr) (fun k c' => matrix_apply m c t k c') p q _ ?_ ?_
  · show win0_2.index t (0 : Fin 2) * 1024 + 1 * p.val = t.val * 1024 + p.val
    rw [e4]; omega
  · show win0_2.index t (1 : Fin 2) * 1024 + 1 * q.val = q.val
    rw [e5]; omega

/-- An index of the result is in point t's block iff each coordinate is in the block's range on its axis. -/
theorem mem_block (t : Fin cfg0.N) (i : S65536x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- The 64 row blocks cover the result: row r is in block r / 1024. -/
theorem covered (i : S65536x1024.Idx) : ∃ t : Fin cfg0.N, (cfg0.win 2).flush t = true ∧ i ∈ ((cfg0.win 2).blk t).view.set := by
  have hi0 : (i 0).val < 65536 := (i 0).isLt
  have hi1 : (i 1).val < 1024 := (i 1).isLt
  have hN : grid0.N = 64 := N_0
  let t : Fin cfg0.N := ⟨(i 0).val / 1024, by show (i 0).val / 1024 < grid0.N; rw [hN]; omega⟩
  obtain ⟨-, -, -, -, e4, e5⟩ := index_facts t
  have ht : t.val = (i 0).val / 1024 := rfl
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 1024 ≤ (i 1).val ∧ (i 1).val < win0_2.index t (1 : Fin 2) * 1024 + 1024; rw [e5]; omega

/-- THE RESULT ARRAY after the run is `shear` of the argument arrays. -/
theorem final (c : Dev nD) :
    (dats m 0 c).arrAt 2 cfg0.N = shear (m ((c : Thread nD τ).loc main_arg0)) (m ((c : Thread nD τ).loc main_arg1)) :=
  (dats m 0 c).arrAt_eq_of_cover 2 (shear (m ((c : Thread nD τ).loc main_arg0)) (m ((c : Thread nD τ).loc main_arg1)))
    (fun t _ => flushed_eq m c t) covered

/-- The kernel's run, read: the result at `shear` of the arguments, the arguments unchanged. -/
theorem run : θ_run defs (onTc (τ := τ) (main (F := Ideal))) ⟨m, fun _ => 0, ρ⟩ fun r => ∀ c : Dev nD,
      r.2.mem ((c : Thread nD τ).loc main_v2) = shear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Shear.Kernel

end
-- ==== Proof.ShearReference.lean ====
/-
  The reference program's result is the map `shear` of its two arguments.

  The reference forms S = A + Aᵀ, cuts every row into its momentum half p and position half q, contracts q with S over
  S's SECOND axis — entry (r, c) of the product is Σ_k q(r, k) · S(c, k) —, adds the product to p and lays the sum and q
  side by side. S(c, k) = A(c, k) + A(k, c) is S(k, c) because addition of extended reals commutes, so this is
  p_c + Σ_k q_k · S(k, c), the formula of `shearAt`.
-/
import proofs.«122211_j28776280883572_1_alg».proof.Proof.Gen.ReferenceIdeal.Read
import proofs.«122211_j28776280883572_1_alg».proof.Proof.ShearSpec
import proofs.«122211_j28776280883572_1_alg».proof.Proof.LibColumnBands
import Idealize.ShloMosaic.Lib.Pipeline.Value
import Idealize.ShloMosaic.Lib.ValueIdx

noncomputable section

namespace Cert.Shear

open Cert.ReferenceIdeal Cert.ReferenceIdeal.Gen Cert.ReferenceIdeal.Read Idealize.ShloMosaic Idealize.ShloMosaic.ValueIdx

/-- The reference's matrix A + Aᵀ read at (a, b) is `sym A a b`. -/
theorem refSym_apply (A : FVec Ideal S512x512 .f32) (a b : Fin 512) :
    val_main_v1 (F := Ideal) A (ix2 a b) = sym A a b := by
  rw [val_main_v1_apply, val_main_v0_apply]
  show A (ix2 a b) + A (idx_main_v0 (ix2 a b)) = A (ix2 a b) + A (ix2 b a)
  refine congrArg (A (ix2 a b) + ·) (congrArg A (funext fun d => Fin.ext ?_))
  match d with
  | ⟨0, _⟩ => rfl
  | ⟨1, _⟩ => rfl

/-- The reference's position half at (r, k) is the argument at (r, 512 + k). -/
theorem refPosition_apply (x : FVec Ideal S65536x1024 .f32) (r : Fin 65536) (k : Fin 512) :
    val_main_v3 (F := Ideal) x (ix2 r k) = x (ix2 r (qcol k)) := by
  unfold val_main_v3
  exact ColumnBands.band_apply x slices_S65536x1024_S65536x512_0_512 r k (by omega)

/-- THE REFERENCE IS THE MAP: its last stage, as a function of the two arguments, is `shear`. -/
theorem reference_eq (x : FVec Ideal S65536x1024 .f32) (A : FVec Ideal S512x512 .f32) :
    val_main_v6 (F := Ideal) x A = shear x A := by
  funext i
  obtain ⟨r, c, rfl⟩ : ∃ (r : Fin 65536) (c : Fin 1024), i = ix2 r c := ⟨i 0, i 1, eq_ix2 i⟩
  rw [shear_ix2]
  unfold val_main_v6 shearAt
  by_cases h : c.val < 512
  · -- a momentum column: p + the contraction of q with S over S's second axis
    rw [dif_pos h]
    refine (ColumnBands.join_left _ _ concatenates_S65536x512_S65536x512_S65536x1024_d1 r c h).trans ?_
    rw [val_main_v5_apply, val_main_v4_apply]
    show val_main_v2 (F := Ideal) x (ix2 r ⟨c.val, h⟩) + _ = _
    refine congrArg₂ (· + ·) ?_ (Finset.sum_congr rfl fun k _ => congrArg₂ (· * ·) ?_ ?_)
    · unfold val_main_v2
      exact (ColumnBands.band_apply x slices_S65536x1024_S65536x512_0_0 r ⟨c.val, h⟩ (by show 0 + c.val < 1024; omega)).trans
        (congrArg x (congrArg (ix2 r) (Fin.ext (Nat.zero_add c.val))))
    · refine (congrArg (val_main_v3 (F := Ideal) x) (?_ : lidx_main_v4 (ix2 r ⟨c.val, h⟩) k = ix2 r k)).trans (refPosition_apply x r k)
      funext d
      apply Fin.ext
      match d with
      | ⟨0, _⟩ => rfl
      | ⟨1, _⟩ => rfl
    · refine (congrArg (val_main_v1 (F := Ideal) A) (?_ : ridx_main_v4 (ix2 r ⟨c.val, h⟩) k = ix2 ⟨c.val, h⟩ k)).trans
        ((refSym_apply A ⟨c.val, h⟩ k).trans (sym_comm A _ _))
      funext d
      apply Fin.ext
      match d with
      | ⟨0, _⟩ => rfl
      | ⟨1, _⟩ => rfl
  · -- a position column: q itself
    rw [dif_neg h]
    have hc : c.val < 1024 := c.isLt
    refine (ColumnBands.join_right _ _ concatenates_S65536x512_S65536x512_S65536x1024_d1 r c (by omega) (by omega)).trans ?_
    refine (refPosition_apply x r ⟨c.val - 512, by omega⟩).trans ?_
    refine congrArg x (congrArg (ix2 r) (Fin.ext ?_))
    show 512 + (c.val - 512) = c.val
    omega

end Cert.Shear

end
-- ==== Proof.lean ====
/- The proof of `Cert.Claim` (proofs.«122211_j28776280883572_1_alg».proof.Defs).

   The claim is about the map that sends every row (p, q) of a 65536 × 1024 array — p in columns 0 … 511, q in columns
   512 … 1023 — to (p + S q, q), where S = A + Aᵀ for the 512 × 512 argument A.

   * The kernel cuts the rows into 64 blocks of 1024, and on each block adds to the momentum half the product of the position
     half with S, entry (p, c) of the product being Σ_k q(p, k) · S(k, c) (Proof/ShearTile.lean); the blocks are the
     corresponding rows of the whole map and cover the result (Proof/ShearKernel.lean).
   * The reference contracts q with S over S's second axis, Σ_k q(r, k) · S(c, k) (Proof/ShearReference.lean).
   * S(c, k) = A(c, k) + A(k, c) = S(k, c), because addition of extended reals commutes (Proof/ShearSpec.lean): the two
     results are one function of the arguments, entry by entry. No entry has to be finite for this, so the precondition is
     never opened.

   The three frames are the programs' runs with the result forgotten; the idealized kernel is the kernel's own text read over
   the extended reals (no operation was rewritten), so `preserves` has nothing to state. -/
import proofs.«122211_j28776280883572_1_alg».proof.Defs
import proofs.«122211_j28776280883572_1_alg».proof.Proof.Gen.Kernel
import proofs.«122211_j28776280883572_1_alg».proof.Proof.Gen.Kernel.Frame
import proofs.«122211_j28776280883572_1_alg».proof.Proof.Gen.KernelIdeal
import proofs.«122211_j28776280883572_1_alg».proof.Proof.Gen.KernelIdeal.Frame
import proofs.«122211_j28776280883572_1_alg».proof.Proof.Gen.KernelIdeal.Value
import proofs.«122211_j28776280883572_1_alg».proof.Proof.Gen.ReferenceIdeal
import proofs.«122211_j28776280883572_1_alg».proof.Proof.Gen.ReferenceIdeal.Run
import proofs.«122211_j28776280883572_1_alg».proof.Proof.Gen.ReferenceIdeal.Read
import proofs.«122211_j28776280883572_1_alg».proof.Proof.Gen.Pre_finite_inputs
import proofs.«122211_j28776280883572_1_alg».proof.Proof.ShearKernel
import proofs.«122211_j28776280883572_1_alg».proof.Proof.ShearReference
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- Both programs end with the result at `shear` of the (agreeing) arguments. -/
theorem algebraic : Cert.algebraic_KernelIdeal_ReferenceIdeal := by
  intro m ρ m' ρ' _ hagree
  refine ⟨fun c => Cert.Shear.shear (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Shear.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v6_eq, Cert.Shear.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
